-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1000000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S5000x64 : Shape := ⟨2, ![5000, 64]⟩
abbrev S1x64 : Shape := ⟨2, ![1, 64]⟩
abbrev S100000x1 : Shape := ⟨2, ![100000, 1]⟩
abbrev S1x1 : Shape := ⟨2, ![1, 1]⟩
abbrev S100000 : Shape := ⟨1, ![100000]⟩

abbrev nBuf : Space → Nat
  | .hbm => 67
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S100000x64, .f32⟩
  | .hbm, ⟨62, _⟩ => ⟨S100000x1, .f32⟩
  | .hbm, ⟨63, _⟩ => ⟨S1x1, .f32⟩
  | .hbm, ⟨64, _⟩ => ⟨S100000x1, .f32⟩
  | .hbm, ⟨65, _⟩ => ⟨S100000x1, .f32⟩
  | .hbm, ⟨66, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_c_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S100000x64_S64x1_S100000x1_1_0_0_1_n_n_wf : DotDims.WF S100000x64 S64x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x1 : Shape := ⟨2, ![100000, 1]⟩
abbrev S1x1 : Shape := ⟨2, ![1, 1]⟩
abbrev S100000 : Shape := ⟨1, ![100000]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x64, .f32⟩
  | .hbm, ⟨85, _⟩ => ⟨S_, .f32⟩
  | .hbm, ⟨86, _⟩ => ⟨S100000x64, .f32⟩
  | .hbm, ⟨87, _⟩ => ⟨S1000000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x1, .f32⟩
  | .hbm, ⟨105, _⟩ => ⟨S1x1, .f32⟩
  | .hbm, ⟨106, _⟩ => ⟨S100000x1, .f32⟩
  | .hbm, ⟨107, _⟩ => ⟨S100000x1, .f32⟩
  | .hbm, ⟨108, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_c_1 : Ref sig .tc := ⟨.hbm, 48, rfl⟩
abbrev main_v25 : Ref sig .tc := ⟨.hbm, 49, rfl⟩
abbrev main_v26 : Ref sig .tc := ⟨.hbm, 50, rfl⟩
abbrev main_c_2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call3_cst : Ref sig .tc := ⟨.hbm, 73, rfl⟩
abbrev main_call3_v0 : Ref sig .tc := ⟨.hbm, 74, rfl⟩
abbrev main_v45 : Ref sig .tc := ⟨.hbm, 75, rfl⟩
abbrev main_c_4 : Ref sig .tc := ⟨.hbm, 76, rfl⟩
abbrev main_v46 : Ref sig .tc := ⟨.hbm, 77, rfl⟩
abbrev main_v47 : Ref sig .tc := ⟨.hbm, 78, rfl⟩
abbrev main_c_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call4_cst : Ref sig .tc := ⟨.hbm, 94, rfl⟩
abbrev main_call4_v0 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call5_cst : Ref sig .tc := ⟨.hbm, 101, rfl⟩
abbrev main_call5_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The kernel's program run from launch to return, with EVERY buffer of the TensorCore read at the end.

  The program is seven segments: a stretch of host operations, a launch, a stretch, a launch, a stretch, a launch and
  a last stretch. Each segment takes the buffers' contents at its entry to their contents at its exit, and the
  contents at the seven boundaries are a fold from the launch memory (`W0` … `W7`). The run ends with every
  unscoped buffer holding what the last boundary `W7` says — in particular the result buffer, and each argument,
  which no segment writes.
-/
import proofs.«133368_j11888469475718_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in the final memory every unscoped buffer of every
    core holds the last boundary's contents. The segments, their proof data and their chaining are the generated
    ones; what is asked of the final state here is the whole valuation rather than the arguments only. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The result buffer is one of the unscoped buffers. -/
theorem result_mem : Proc.devRef .tc main_v41 ∈ Pipeline.ucRefs τ sig := mem_uc main_v41 (by decide)

end Cert.KernelIdeal.Net

end
-- ==== Proof.KHost.lean ====
/-
  The host side of the kernel's program, as functions of whole arrays.

  Between its three launches the program computes the neighbour sums exactly as a plain array program would: from
  the edge list it takes the source row and the destination row, wraps a negative source index by the number of
  nodes, gathers the source nodes' feature rows and adds each at its destination node's row of an array of zeros.
  After the last launch it multiplies the node features by the [64, 1] read-out weights, adds the read-out bias and
  drops the single column.
-/
import proofs.«133368_j11888469475718_1_alg».proof.KernelIdeal
import proofs.«133368_j11888469475718_1_alg».proof.Proof.Gen.KernelIdeal
import Idealize.ShloMosaic.PureOps.Ideal

noncomputable section

namespace Cert.KernelIdeal.Net

open Cert.KernelIdeal Cert.KernelIdeal.Gen Idealize.ShloMosaic Idealize.ShloMosaic.TcCoe Idealize.SL.Sem

/-- the edge list: row 0 the source nodes, row 1 the destination nodes -/
abbrev Edges : Type := (⟨S2x1000000, .i32⟩ : BufTy).Contents (Elt Ideal)

/-- the source node of every edge -/
def src (ei : Edges) : (⟨S1000000, .i32⟩ : BufTy).Contents (Elt Ideal) :=
  shapeCast S1000000 (extractStridedSlice S1x1000000 ![0, 0] ei slices_S2x1000000_S1x1000000_0_0) shapeCasts_S1x1000000_S1000000

/-- the destination node of every edge -/
def dst (ei : Edges) : (⟨S1000000, .i32⟩ : BufTy).Contents (Elt Ideal) :=
  shapeCast S1000000 (extractStridedSlice S1x1000000 ![1, 0] ei slices_S2x1000000_S1x1000000_1_0) shapeCasts_S1x1000000_S1000000

/-- The neighbour sums from the two edge rows: into an array of zeros, every edge adds the row of its source node
    (a negative source index wrapped by 100000) at the row of its destination node. -/
def aggOf (s d : (⟨S1000000, .i32⟩ : BufTy).Contents (Elt Ideal)) (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0
        (select (cmpi .slt s (broadcastInDim S1000000 ![] bcast_S_S1000000 (constantI S_ 32 0#32)))
          (addi s (broadcastInDim S1000000 ![] bcast_S_S1000000 (constantI S_ 32 100000#32)))
          s)))

/-- the neighbour sums along an edge list -/
def agg (ei : Edges) (h : FVec Ideal S100000x64 .f32) : FVec Ideal S100000x64 .f32 := aggOf (src ei) (dst ei) h

/-- the read-out on whole arrays -/
def hostReadout (h : FVec Ideal S100000x64 .f32) (ow : FVec Ideal S64x1 .f32) (ob : FVec Ideal S1 .f32) : FVec Ideal S100000 .f32 :=
  shapeCast S100000
    (addf (Host.dotGeneral (F := Ideal) dot_S100000x64_S64x1_S100000x1_1_0_0_1_n_n none h ow)
      (broadcastInDim S100000x1 ![0, 1] bcast_S1x1_S100000x1_0_1 (broadcastInDim S1x1 ![1] bcast_S1_S1x1_1 ob)))
    shapeCasts_S100000x1_S100000

end Cert.KernelIdeal.Net

end
-- ==== Proof.KWalk.lean ====
/-
  The buffers' contents at the boundaries between the program's segments.

  A host stretch leaves a buffer it does not write as it found it and a buffer it writes at its operation's value of
  the operands' contents; a launch leaves every buffer but its own arrays as it found them. Walking back from a
  boundary to the launch memory: every argument array is still the launch memory's at every boundary; the edge rows
  `src` and `dst` computed by the first stretch are still there later; and each stretch's scatter result is the
  neighbour sums of the features the stretch found.
-/
import proofs.«133368_j11888469475718_1_alg».proof.Proof.Gen.KernelIdeal.Frame
import proofs.«133368_j11888469475718_1_alg».proof.Proof.KHost
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- One step back from a boundary: through a launch at a buffer that is none of its arrays, or through a host stretch
    (its operations' results read off the fold). -/
local macro "back" : tactic => `(tactic| (first
  | rw [W6_of_ne _ _ _ _ (by decide)]
  | rw [W4_of_ne _ _ _ _ (by decide)]
  | rw [W2_of_ne _ _ _ _ (by decide)]
  | (dsimp only [W7, W5, W3, W1, hostOps0, hostOps1, hostOps2, hostOps3]; after_results)))

/-! ## After the first stretch -/
theorem W1_arg0 : W1 m ρ c (Proc.devRef .tc main_arg0) = m ((c : Thread nD τ).loc main_arg0) := by back
theorem W1_arg2 : W1 m ρ c (Proc.devRef .tc main_arg2) = m ((c : Thread nD τ).loc main_arg2) := by back
theorem W1_arg3 : W1 m ρ c (Proc.devRef .tc main_arg3) = m ((c : Thread nD τ).loc main_arg3) := by back
theorem W1_arg4 : W1 m ρ c (Proc.devRef .tc main_arg4) = m ((c : Thread nD τ).loc main_arg4) := by back
theorem W1_arg5 : W1 m ρ c (Proc.devRef .tc main_arg5) = m ((c : Thread nD τ).loc main_arg5) := by back
theorem W1_src : W1 m ρ c (Proc.devRef .tc main_v1) = src (m ((c : Thread nD τ).loc main_arg1)) := by back; rfl
theorem W1_dst : W1 m ρ c (Proc.devRef .tc main_v3) = dst (m ((c : Thread nD τ).loc main_arg1)) := by back; rfl
/-- The first stretch's scatter result: the neighbour sums of the input features. -/
theorem W1_agg : W1 m ρ c (Proc.devRef .tc main_v13) = agg (m ((c : Thread nD τ).loc main_arg1)) (m ((c : Thread nD τ).loc main_arg0)) := by back; rfl

/-! ## After the second stretch -/
theorem W3_arg6 : W3 m ρ c (Proc.devRef .tc main_arg6) = m ((c : Thread nD τ).loc main_arg6) := by back; back; back
theorem W3_arg7 : W3 m ρ c (Proc.devRef .tc main_arg7) = m ((c : Thread nD τ).loc main_arg7) := by back; back; back
theorem W3_arg8 : W3 m ρ c (Proc.devRef .tc main_arg8) = m ((c : Thread nD τ).loc main_arg8) := by back; back; back
theorem W3_arg9 : W3 m ρ c (Proc.devRef .tc main_arg9) = m ((c : Thread nD τ).loc main_arg9) := by back; back; back
/-- The edge rows are still there after the first launch. -/
theorem W2_src : W2 m ρ c (Proc.devRef .tc main_v1) = src (m ((c : Thread nD τ).loc main_arg1)) := by back; exact W1_src m ρ c
theorem W2_dst : W2 m ρ c (Proc.devRef .tc main_v3) = dst (m ((c : Thread nD τ).loc main_arg1)) := by back; exact W1_dst m ρ c
/-- The first launch's output is still there. -/
theorem W3_feat : W3 m ρ c (Proc.devRef .tc main_v14) = W2 m ρ c (Proc.devRef .tc main_v14) := by back
/-- The second stretch's scatter result: the neighbour sums of the first launch's output. -/
theorem W3_agg : W3 m ρ c (Proc.devRef .tc main_v24) = agg (m ((c : Thread nD τ).loc main_arg1)) (W2 m ρ c (Proc.devRef .tc main_v14)) := by
  back
  rw [W2_src, W2_dst]
  rfl

/-! ## After the third stretch -/
theorem W5_arg10 : W5 m ρ c (Proc.devRef .tc main_arg10) = m ((c : Thread nD τ).loc main_arg10) := by back; back; back; back; back
theorem W5_arg11 : W5 m ρ c (Proc.devRef .tc main_arg11) = m ((c : Thread nD τ).loc main_arg11) := by back; back; back; back; back
theorem W5_arg12 : W5 m ρ c (Proc.devRef .tc main_arg12) = m ((c : Thread nD τ).loc main_arg12) := by back; back; back; back; back
theorem W5_arg13 : W5 m ρ c (Proc.devRef .tc main_arg13) = m ((c : Thread nD τ).loc main_arg13) := by back; back; back; back; back
/-- The edge rows are still there after the second launch. -/
theorem W4_src : W4 m ρ c (Proc.devRef .tc main_v1) = src (m ((c : Thread nD τ).loc main_arg1)) := by back; back; exact W2_src m ρ c
theorem W4_dst : W4 m ρ c (Proc.devRef .tc main_v3) = dst (m ((c : Thread nD τ).loc main_arg1)) := by back; back; exact W2_dst m ρ c
/-- The second launch's output is still there. -/
theorem W5_feat : W5 m ρ c (Proc.devRef .tc main_v25) = W4 m ρ c (Proc.devRef .tc main_v25) := by back
/-- The third stretch's scatter result: the neighbour sums of the second launch's output. -/
theorem W5_agg : W5 m ρ c (Proc.devRef .tc main_v35) = agg (m ((c : Thread nD τ).loc main_arg1)) (W4 m ρ c (Proc.devRef .tc main_v25)) := by
  back
  rw [W4_src, W4_dst]
  rfl

/-! ## After the last stretch -/
theorem W6_arg14 : W6 m ρ c (Proc.devRef .tc main_arg14) = m ((c : Thread nD τ).loc main_arg14) := by back; back; back; back; back; back
theorem W6_arg15 : W6 m ρ c (Proc.devRef .tc main_arg15) = m ((c : Thread nD τ).loc main_arg15) := by back; back; back; back; back; back
/-- The result buffer: the read-out of the third launch's output. -/
theorem W7_out : W7 m ρ c (Proc.devRef .tc main_v41)
    = hostReadout (W6 m ρ c (Proc.devRef .tc main_v36)) (m ((c : Thread nD τ).loc main_arg14)) (m ((c : Thread nD τ).loc main_arg15)) := by
  back
  rw [W6_arg14, W6_arg15]
  rfl

end Cert.KernelIdeal.Net

end
-- ==== Proof.GinSpec.lean ====
/-
  The function both programs compute, stated once over the extended reals.

  A graph-isomorphism layer takes node features `h` (one row of 64 numbers per node) and the neighbour sums `a`
  (same shape), adds them row by row, and sends each row through a two-layer perceptron with a rectifier after each
  affine map:  `row ↦ max (max (row · w1 + b1) 0 · w2 + b2) 0`.
  Three such layers are stacked — the neighbour sums of each layer being an aggregation `A` of that layer's input —
  and a final affine map 64 → 1 reads one number off each node's row.

  Everything here is index-by-index: a row-times-matrix product is a sum over the 64 shared coordinates, in the
  order (row entry) × (matrix entry); the bias is added to the sum; the rectifier is `max · 0`.
-/
import Idealize.ShloMosaic.PureOps.Ideal
import Idealize.ShloMosaic.Lib.ValueIdx

noncomputable section

namespace Cert.Gin

open Idealize.ShloMosaic Idealize.ShloMosaic.ValueIdx

/-- node features: 100000 nodes, 64 numbers each -/
abbrev SN : Shape := ⟨2, ![100000, 64]⟩
/-- a 64 × 64 weight matrix -/
abbrev SW : Shape := ⟨2, ![64, 64]⟩
/-- a bias vector of 64 numbers -/
abbrev SB : Shape := ⟨1, ![64]⟩
/-- the read-out weights, 64 × 1 -/
abbrev SOW : Shape := ⟨2, ![64, 1]⟩
/-- the read-out bias, one number -/
abbrev SOB : Shape := ⟨1, ![1]⟩
/-- the result: one number per node -/
abbrev SO : Shape := ⟨1, ![100000]⟩

/-- One affine map followed by the rectifier, at output coordinate `k`: `max (∑ l, z l · w (l, k) + b k) 0`. -/
def dense (z : Fin 64 → EReal) (w : FVec Ideal SW .f32) (b : FVec Ideal SB .f32) (k : Fin 64) : EReal :=
  max ((∑ l : Fin 64, z l * w (ix2 l k)) + b (ix1 k)) 0

/-- The two-layer perceptron of one row `z`, at output coordinate `q`. -/
def mlp (z : Fin 64 → EReal) (w1 : FVec Ideal SW .f32) (b1 : FVec Ideal SB .f32) (w2 : FVec Ideal SW .f32)
    (b2 : FVec Ideal SB .f32) (q : Fin 64) : EReal :=
  dense (dense z w1 b1) w2 b2 q

/-- One layer at node `p`, feature `q`: the perceptron of the row `h p + a p`. -/
def layerAt (h a : FVec Ideal SN .f32) (w1 : FVec Ideal SW .f32) (b1 : FVec Ideal SB .f32) (w2 : FVec Ideal SW .f32)
    (b2 : FVec Ideal SB .f32) (p : Fin 100000) (q : Fin 64) : EReal :=
  mlp (fun l => h (ix2 p l) + a (ix2 p l)) w1 b1 w2 b2 q

/-- One layer, as an array of node features. -/
def layer (h a : FVec Ideal SN .f32) (w1 : FVec Ideal SW .f32) (b1 : FVec Ideal SB .f32) (w2 : FVec Ideal SW .f32)
    (b2 : FVec Ideal SB .f32) : FVec Ideal SN .f32 :=
  fun i => layerAt h a w1 b1 w2 b2 (i 0) (i 1)

/-- The read-out at node `p`: `∑ k, h (p, k) · ow (k, 0) + ob 0`. -/
def readoutAt (h : FVec Ideal SN .f32) (ow : FVec Ideal SOW .f32) (ob : FVec Ideal SOB .f32) (p : Fin 100000) : EReal :=
  (∑ k : Fin 64, h (ix2 p k) * ow (ix2 k 0)) + ob (ix1 0)

/-- The read-out, as an array. -/
def readout (h : FVec Ideal SN .f32) (ow : FVec Ideal SOW .f32) (ob : FVec Ideal SOB .f32) : FVec Ideal SO .f32 :=
  fun i => readoutAt h ow ob (i 0)

/-- One message-passing step: a layer fed its input `h` and the aggregation `A h` of that same input. -/
def step (A : FVec Ideal SN .f32 → FVec Ideal SN .f32) (h : FVec Ideal SN .f32)
    (w1 : FVec Ideal SW .f32) (b1 : FVec Ideal SB .f32) (w2 : FVec Ideal SW .f32) (b2 : FVec Ideal SB .f32) : FVec Ideal SN .f32 :=
  layer h (A h) w1 b1 w2 b2

/-- The whole network over an aggregation `A` of node features (the neighbour sums along the graph's edges):
    three steps, then the read-out. -/
def net (A : FVec Ideal SN .f32 → FVec Ideal SN .f32) (x : FVec Ideal SN .f32)
    (w1a : FVec Ideal SW .f32) (b1a : FVec Ideal SB .f32) (w2a : FVec Ideal SW .f32) (b2a : FVec Ideal SB .f32)
    (w1b : FVec Ideal SW .f32) (b1b : FVec Ideal SB .f32) (w2b : FVec Ideal SW .f32) (b2b : FVec Ideal SB .f32)
    (w1c : FVec Ideal SW .f32) (b1c : FVec Ideal SB .f32) (w2c : FVec Ideal SW .f32) (b2c : FVec Ideal SB .f32)
    (ow : FVec Ideal SOW .f32) (ob : FVec Ideal SOB .f32) : FVec Ideal SO .f32 :=
  readout (step A (step A (step A x w1a b1a w2a b2a) w1b b1b w2b b2b) w1c b1c w2c b2c) ow ob

end Cert.Gin

end
-- ==== Proof.KBody.lean ====
/-
  What one launch's body computes on a block of 5000 node rows.

  The body adds the block of node features and the block of neighbour sums, and applies the two affine maps, each
  followed by the rectifier. An affine map is a product with a [64, 64] weight matrix accumulated into zeros plus the
  bias row repeated down the block; the conversions to a 16-bit format in front of each product are the identity on
  exact values. Read at row `p`, column `k`, the product is the sum over the 64 shared coordinates, the repeated bias is
  the bias at `k`, and the splat zero is the real number zero: one affine map with its rectifier is `Gin.dense` of the
  block's row `p`, and the whole body is `Gin.mlp` of the summed row.
-/
import proofs.«133368_j11888469475718_1_alg».proof.Proof.Gen.KernelIdeal.Skeleton
import proofs.«133368_j11888469475718_1_alg».proof.Proof.GinSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Net

open Cert.KernelIdeal Cert.KernelIdeal.Gen Idealize.ShloMosaic Idealize.ShloMosaic.TcCoe Idealize.SL.Sem
open Idealize.ShloMosaic.ValueIdx

/-- the block product's dimension numbers: [5000, 64] × [64, 64], contracting the 64 columns with the 64 rows -/
abbrev blockDot : DotDims S5000x64 S64x64 S5000x64 := dot_S5000x64_S64x64_S5000x64_1_0_0_1_n_n

/-- The product's sum over the contraction index, re-indexed by the shared coordinate `l : Fin 64`: the left operand
    is read at `(p, l)`, the right at `(l, k)`. -/
theorem blockDot_sum (x : FVec Ideal S5000x64 .bf16) (w : FVec Ideal S64x64 .bf16) (p : Fin 5000) (k : Fin 64) :
    ∑ q : blockDot.contr.Idx, x (blockDot.lhsIdx (ix2 p k) q) * w (blockDot.rhsIdx (ix2 p k) q)
      = ∑ l : Fin 64, x (ix2 p l) * w (ix2 l k) := by
  rw [← Equiv.sum_comp (contrEquiv1 blockDot 64 rfl rfl).symm]
  refine Finset.sum_congr rfl fun l _ => ?_
  have hl := contrEquiv1_symm_val blockDot 64 rfl rfl l
  have el : blockDot.lhsIdx (ix2 p k) ((contrEquiv1 blockDot 64 rfl rfl).symm l) = ix2 p l := funext fun a => Fin.ext (by
    match a with
    | ⟨0, _⟩ =>
      show (blockDot.lhsIdx (ix2 p k) _ 0).val = p.val
      unfold DotDims.lhsIdx
      rw [dif_neg (show ¬(0 : Fin S5000x64.rank) ∈ blockDot.lhsBatch by decide), dif_pos (show (0 : Fin S5000x64.rank) ∈ blockDot.lhsNonContracting by decide)]
      rfl
    | ⟨1, _⟩ => exact (blockDot.lhsIdx_val_of_single rfl _ _).trans hl)
  have er : blockDot.rhsIdx (ix2 p k) ((contrEquiv1 blockDot 64 rfl rfl).symm l) = ix2 l k := funext fun a => Fin.ext (by
    match a with
    | ⟨0, _⟩ => exact (blockDot.rhsIdx_val_of_single rfl _ _).trans hl
    | ⟨1, _⟩ =>
      show (blockDot.rhsIdx (ix2 p k) _ 1).val = k.val
      unfold DotDims.rhsIdx
      rw [dif_neg (show ¬(1 : Fin S64x64.rank) ∈ blockDot.rhsBatch by decide), dif_pos (show (1 : Fin S64x64.rank) ∈ blockDot.rhsNonContracting by decide)]
      rfl)
  rw [el, er]

/-- One affine map with its rectifier on a block, as the body spells it. -/
def blockDense (z : FVec Ideal S5000x64 .f32) (w : FVec Ideal S64x64 .f32) (b : FVec Ideal S64 .f32) : FVec Ideal S5000x64 .f32 :=
  maximumf
    (addf (matmul blockDot none (truncf .bf16 z bitsLt_bf16_f32) (truncf .bf16 w bitsLt_bf16_f32) (constant (F := Ideal) S5000x64 .f32 0x00000000#32))
      (broadcastTo S5000x64 (shapeCast S1x64 b shapeCasts_S64_S1x64) broadcasts_S1x64_S5000x64))
    (broadcast S5000x64 (Scalar.ofBits (F := Ideal) .f32 0x00000000#32))

/-- The first launch's payload is the two affine maps of the summed blocks (the cast of a block to its own shape is
    the identity and is still spelt here). -/
theorem pay0_eq (v0 v1 : Vec Ideal S5000x64 .f32) (v5 : Vec Ideal S64x64 .f32) (v8 : Vec Ideal S64 .f32)
    (v15 : Vec Ideal S64x64 .f32) (v18 : Vec Ideal S64 .f32) :
    k0_pay1 v0 v1 v5 v8 v15 v18
      = blockDense (blockDense (addf v0 (shapeCast S5000x64 v1 shapeCasts_S5000x64_S5000x64)) v5 v8) v15 v18 := rfl

/-- The second launch's payload likewise. -/
theorem pay1_eq (v0 v2 : Vec Ideal S5000x64 .f32) (v6 : Vec Ideal S64x64 .f32) (v9 : Vec Ideal S64 .f32)
    (v16 : Vec Ideal S64x64 .f32) (v19 : Vec Ideal S64 .f32) :
    k1_pay1 v0 v2 v6 v9 v16 v19
      = blockDense (blockDense (addf (shapeCast S5000x64 v0 shapeCasts_S5000x64_S5000x64) (shapeCast S5000x64 v2 shapeCasts_S5000x64_S5000x64)) v6 v9) v16 v19 := rfl

/-- The third launch's payload likewise. -/
theorem pay2_eq (v0 v2 : Vec Ideal S5000x64 .f32) (v6 : Vec Ideal S64x64 .f32) (v9 : Vec Ideal S64 .f32)
    (v16 : Vec Ideal S64x64 .f32) (v19 : Vec Ideal S64 .f32) :
    k2_pay1 v0 v2 v6 v9 v16 v19
      = blockDense (blockDense (addf (shapeCast S5000x64 v0 shapeCasts_S5000x64_S5000x64) (shapeCast S5000x64 v2 shapeCasts_S5000x64_S5000x64)) v6 v9) v16 v19 := rfl

/-- One affine map with its rectifier on a block, read at row `p`, column `k`. -/
theorem blockDense_apply (z : FVec Ideal S5000x64 .f32) (w : FVec Ideal S64x64 .f32) (b : FVec Ideal S64 .f32) (p : Fin 5000) (k : Fin 64) :
    blockDense z w b (ix2 p k) = Gin.dense (fun l => z (ix2 p l)) w b k := by
  unfold blockDense Gin.dense
  show max (_ + _) _ = max (_ + _) 0
  refine congr (congrArg max (congr (congrArg HAdd.hAdd ?_) ?_)) ?_
  · refine (Ideal.matmul_constant_zero_apply blockDot none _ _ (ix2 p k)).trans ?_
    exact blockDot_sum _ _ p k
  · refine (broadcastTo_1b_ab_apply _ broadcasts_S1x64_S5000x64 p k).trans ?_
    exact shapeCast_a_1a_apply b shapeCasts_S64_S1x64 0 k
  · exact Ideal.ofBits_zero_f32

/-- The body's two affine maps on summed blocks, read at row `p`, column `q`: the perceptron of the summed row. -/
theorem blockMlp_apply (h a : FVec Ideal S5000x64 .f32) (w1 : FVec Ideal S64x64 .f32) (b1 : FVec Ideal S64 .f32)
    (w2 : FVec Ideal S64x64 .f32) (b2 : FVec Ideal S64 .f32) (p : Fin 5000) (q : Fin 64) :
    blockDense (blockDense (addf h a) w1 b1) w2 b2 (ix2 p q) = Gin.mlp (fun l => h (ix2 p l) + a (ix2 p l)) w1 b1 w2 b2 q := by
  rw [blockDense_apply]
  unfold Gin.mlp
  refine congrArg (fun z => Gin.dense z w2 b2 q) (funext fun k => ?_)
  exact blockDense_apply (addf h a) w1 b1 p k

end Cert.KernelIdeal.Net

end
-- ==== Proof.KBlocks.lean ====
/-
  From blocks to arrays: after each launch the output array is the layer of the arrays the launch found.

  A launch walks 20 grid points. At point `t` the body reads block `t` (5000 rows) of the node features and of the
  neighbour sums, and the whole weight and bias arrays, and writes block `t` of the output. What it writes is the
  perceptron of each summed row of the block, so it is block `t` of the layer computed on whole arrays; the 20 blocks
  cover all 100000 rows, so the output array ends as that layer. This holds whatever the arrays are when the launch is
  entered: they are a parameter `V` here.
-/
import proofs.«133368_j11888469475718_1_alg».proof.Proof.Gen.KernelIdeal.Frame
import proofs.«133368_j11888469475718_1_alg».proof.Proof.KBody
import Idealize.ShloMosaic.Lib.Pipeline.Value

set_option maxRecDepth 16384

noncomputable section

namespace Cert.KernelIdeal.Net

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

/-- The perceptron of a block's row is the layer at an array index, when the block's row is the array's row at that
    index and the column is the index's column. -/
theorem mlp_row_eq (H A : FVec Ideal Gin.SN .f32) (w1 : FVec Ideal Gin.SW .f32) (b1 : FVec Ideal Gin.SB .f32)
    (w2 : FVec Ideal Gin.SW .f32) (b2 : FVec Ideal Gin.SB .f32) (i : Gin.SN.Idx)
    (h a : FVec Ideal S5000x64 .f32) (p : Fin 5000) (q : Fin 64)
    (hh : ∀ l : Fin 64, h (ix2 p l) = H (ix2 (i 0) l)) (ha : ∀ l : Fin 64, a (ix2 p l) = A (ix2 (i 0) l))
    (hq : (i 1).val = q.val) :
    Gin.mlp (fun l => h (ix2 p l) + a (ix2 p l)) w1 b1 w2 b2 q = Gin.layer H A w1 b1 w2 b2 i := by
  show _ = Gin.mlp (fun l => H (ix2 (i 0) l) + A (ix2 (i 0) l)) w1 b1 w2 b2 (i 1)
  have e1 : (fun l : Fin 64 => h (ix2 p l) + a (ix2 p l)) = (fun l : Fin 64 => H (ix2 (i 0) l) + A (ix2 (i 0) l)) :=
    funext fun l => by rw [hh l, ha l]
  have e2 : q = i 1 := Fin.ext hq.symm
  rw [e1, e2]

variable (V : (c : Dev nD) → (b : Ref sig .tc) → Buf (Elt Ideal) ((c : Thread nD τ).loc b))

/-! ## Launch 0 -/

/-- The index maps of launch 0 over its 20 grid points: the feature block, the neighbour-sum block and the output
    block of point `t` are all block `t` of the rows and the one block of the columns; every weight and bias window
    is its whole array at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What point `t` of launch 0 writes back is block `t` of the layer of the arrays the launch finds. -/
theorem flushed0 (c : Dev nD) (t : Fin cfg0.N) :
    (dat0 V c).flushed 6 t = ((cfg0.win 6).blk t).view.read (Elt Ideal)
      (Gin.layer (V c main_arg0) (V c main_v13) (V c main_arg2) (V c main_arg3) (V c main_arg4) (V c main_arg5)) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S64x64) hz2, View.ld_unit_zero (S := S64) hz1]
  rw [pay0_eq]
  simp only [shapeCast_self]
  obtain ⟨e00, e01, e10, e11, e20, e21, e3, e40, e41, e5, e60, e61⟩ := idx_facts0 t
  funext j
  obtain ⟨p, q, rfl⟩ : ∃ (p : Fin 5000) (q : Fin 64), j = ix2 p q := ⟨j 0, j 1, eq_ix2 j⟩
  refine (blockMlp_apply (iblk0 V c 0 t) (iblk0 V c 1 t) (iblk0 V c 2 t) (iblk0 V c 3 t) (iblk0 V c 4 t) (iblk0 V c 5 t) p q).trans ?_
  have w2 : iblk0 V c 2 t = V c main_arg2 := funext fun y => by
    show V c main_arg2 (((cfg0.win 2).blk t).view.emb y) = V c main_arg2 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have w3 : iblk0 V c 3 t = V c main_arg3 := funext fun y => by
    show V c main_arg3 (((cfg0.win 3).blk t).view.emb y) = V c main_arg3 y
    refine congrArg _ (funext fun a => Fin.ext ?_)
    match a with
    | ⟨0, _⟩ => show win0_3.index t (0 : Fin 1) * 64 + 1 * (y 0).val = (y 0).val; omega
  have w4 : iblk0 V c 4 t = V c main_arg4 := funext fun y => by
    show V c main_arg4 (((cfg0.win 4).blk t).view.emb y) = V c main_arg4 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have w5 : iblk0 V c 5 t = V c main_arg5 := funext fun y => by
    show V c main_arg5 (((cfg0.win 5).blk t).view.emb y) = V c main_arg5 y
    refine congrArg _ (funext fun a => Fin.ext ?_)
    match a with
    | ⟨0, _⟩ => show win0_5.index t (0 : Fin 1) * 64 + 1 * (y 0).val = (y 0).val; omega
  rw [w2, w3, w4, w5]
  refine mlp_row_eq _ _ _ _ _ _ _ _ _ p q (fun l => ?_) (fun l => ?_) ?_
  · show V c main_arg0 (((cfg0.win 0).blk t).view.emb (ix2 p l)) = V c main_arg0 _
    refine congrArg _ (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 64 + 1 * l.val = l.val; omega
  · show V c main_v13 (((cfg0.win 1).blk t).view.emb (ix2 p l)) = V c main_v13 _
    refine congrArg _ (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 64 + 1 * l.val = l.val; omega
  · show win0_6.index t (1 : Fin 2) * 64 + 1 * q.val = q.val
    omega

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v14).slice (win0_6.rect t)).set ↔ _
  rw [View.set_slice_whole, Rect.mem_set_unit]
  exact Iff.rfl

/-- The 20 blocks of 5000 rows cover the 100000 rows: row `r` is in the block of point `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨-, -, -, -, -, -, -, -, -, -, e60, e61⟩ := idx_facts0 t
  have ht : t.val = (i 0).val / 5000 := rfl
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After launch 0 its output array is the layer of the arrays it found. -/
theorem arr0 (c : Dev nD) :
    (dat0 V c).arrAt 6 cfg0.N
      = Gin.layer (V c main_arg0) (V c main_v13) (V c main_arg2) (V c main_arg3) (V c main_arg4) (V c main_arg5) :=
  (dat0 V c).arrAt_eq_of_cover 6 _ (fun t _ => flushed0 V c t) (cover0)

/-! ## Launch 1 -/

/-- The index maps of launch 1 over its 20 grid points: the feature block, the neighbour-sum block and the output
    block of point `t` are all block `t` of the rows and the one block of the columns; every weight and bias window
    is its whole array at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What point `t` of launch 1 writes back is block `t` of the layer of the arrays the launch finds. -/
theorem flushed1 (c : Dev nD) (t : Fin cfg1.N) :
    (dat1 V c).flushed 6 t = ((cfg1.win 6).blk t).view.read (Elt Ideal)
      (Gin.layer (V c main_v14) (V c main_v24) (V c main_arg6) (V c main_arg7) (V c main_arg8) (V c main_arg9)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x64) hz2, View.ld_unit_zero (S := S64) hz1]
  rw [pay1_eq]
  simp only [shapeCast_self]
  obtain ⟨e00, e01, e10, e11, e20, e21, e3, e40, e41, e5, e60, e61⟩ := idx_facts1 t
  funext j
  obtain ⟨p, q, rfl⟩ : ∃ (p : Fin 5000) (q : Fin 64), j = ix2 p q := ⟨j 0, j 1, eq_ix2 j⟩
  refine (blockMlp_apply (iblk1 V c 0 t) (iblk1 V c 1 t) (iblk1 V c 2 t) (iblk1 V c 3 t) (iblk1 V c 4 t) (iblk1 V c 5 t) p q).trans ?_
  have w2 : iblk1 V c 2 t = V c main_arg6 := funext fun y => by
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have w3 : iblk1 V c 3 t = V c main_arg7 := funext fun y => by
    show V c main_arg7 (((cfg1.win 3).blk t).view.emb y) = V c main_arg7 y
    refine congrArg _ (funext fun a => Fin.ext ?_)
    match a with
    | ⟨0, _⟩ => show win1_3.index t (0 : Fin 1) * 64 + 1 * (y 0).val = (y 0).val; omega
  have w4 : iblk1 V c 4 t = V c main_arg8 := funext fun y => by
    show V c main_arg8 (((cfg1.win 4).blk t).view.emb y) = V c main_arg8 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have w5 : iblk1 V c 5 t = V c main_arg9 := funext fun y => by
    show V c main_arg9 (((cfg1.win 5).blk t).view.emb y) = V c main_arg9 y
    refine congrArg _ (funext fun a => Fin.ext ?_)
    match a with
    | ⟨0, _⟩ => show win1_5.index t (0 : Fin 1) * 64 + 1 * (y 0).val = (y 0).val; omega
  rw [w2, w3, w4, w5]
  refine mlp_row_eq _ _ _ _ _ _ _ _ _ p q (fun l => ?_) (fun l => ?_) ?_
  · show V c main_v14 (((cfg1.win 0).blk t).view.emb (ix2 p l)) = V c main_v14 _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 64 + 1 * l.val = l.val; omega
  · show V c main_v24 (((cfg1.win 1).blk t).view.emb (ix2 p l)) = V c main_v24 _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 64 + 1 * l.val = l.val; omega
  · show win1_6.index t (1 : Fin 2) * 64 + 1 * q.val = q.val
    omega

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v25).slice (win1_6.rect t)).set ↔ _
  rw [View.set_slice_whole, Rect.mem_set_unit]
  exact Iff.rfl

/-- The 20 blocks of 5000 rows cover the 100000 rows: row `r` is in the block of point `r / 5000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; omega⟩
  obtain ⟨-, -, -, -, -, -, -, -, -, -, e60, e61⟩ := idx_facts1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After launch 1 its output array is the layer of the arrays it found. -/
theorem arr1 (c : Dev nD) :
    (dat1 V c).arrAt 6 cfg1.N
      = Gin.layer (V c main_v14) (V c main_v24) (V c main_arg6) (V c main_arg7) (V c main_arg8) (V c main_arg9) :=
  (dat1 V c).arrAt_eq_of_cover 6 _ (fun t _ => flushed1 V c t) (cover1)

/-! ## Launch 2 -/

/-- The index maps of launch 2 over its 20 grid points: the feature block, the neighbour-sum block and the output
    block of point `t` are all block `t` of the rows and the one block of the columns; every weight and bias window
    is its whole array at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- What point `t` of launch 2 writes back is block `t` of the layer of the arrays the launch finds. -/
theorem flushed2 (c : Dev nD) (t : Fin cfg2.N) :
    (dat2 V c).flushed 6 t = ((cfg2.win 6).blk t).view.read (Elt Ideal)
      (Gin.layer (V c main_v25) (V c main_v35) (V c main_arg10) (V c main_arg11) (V c main_arg12) (V c main_arg13)) := by
  show (cfg2.win 6).cut (grid2.coords t) ((dat2 V c).after 6 t) = _
  rw [after2_6]
  unfold out2_6
  rw [View.canon_unit_zero hz2]
  simp only [View.ld_unit_zero (S := S5000x64) hz2, View.ld_unit_zero (S := S64x64) hz2, View.ld_unit_zero (S := S64) hz1]
  rw [pay2_eq]
  simp only [shapeCast_self]
  obtain ⟨e00, e01, e10, e11, e20, e21, e3, e40, e41, e5, e60, e61⟩ := idx_facts2 t
  funext j
  obtain ⟨p, q, rfl⟩ : ∃ (p : Fin 5000) (q : Fin 64), j = ix2 p q := ⟨j 0, j 1, eq_ix2 j⟩
  refine (blockMlp_apply (iblk2 V c 0 t) (iblk2 V c 1 t) (iblk2 V c 2 t) (iblk2 V c 3 t) (iblk2 V c 4 t) (iblk2 V c 5 t) p q).trans ?_
  have w2 : iblk2 V c 2 t = V c main_arg10 := funext fun y => by
    show V c main_arg10 (((cfg2.win 2).blk t).view.emb y) = V c main_arg10 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  have w3 : iblk2 V c 3 t = V c main_arg11 := funext fun y => by
    show V c main_arg11 (((cfg2.win 3).blk t).view.emb y) = V c main_arg11 y
    refine congrArg _ (funext fun a => Fin.ext ?_)
    match a with
    | ⟨0, _⟩ => show win2_3.index t (0 : Fin 1) * 64 + 1 * (y 0).val = (y 0).val; omega
  have w4 : iblk2 V c 4 t = V c main_arg12 := funext fun y => by
    show V c main_arg12 (((cfg2.win 4).blk t).view.emb y) = V c main_arg12 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  have w5 : iblk2 V c 5 t = V c main_arg13 := funext fun y => by
    show V c main_arg13 (((cfg2.win 5).blk t).view.emb y) = V c main_arg13 y
    refine congrArg _ (funext fun a => Fin.ext ?_)
    match a with
    | ⟨0, _⟩ => show win2_5.index t (0 : Fin 1) * 64 + 1 * (y 0).val = (y 0).val; omega
  rw [w2, w3, w4, w5]
  refine mlp_row_eq _ _ _ _ _ _ _ _ _ p q (fun l => ?_) (fun l => ?_) ?_
  · show V c main_v25 (((cfg2.win 0).blk t).view.emb (ix2 p l)) = V c main_v25 _
    refine congrArg _ (funext fun a => Fin.ext ?_)
    match a with
    | ⟨0, _⟩ => show win2_0.index t (0 : Fin 2) * 5000 + 1 * p.val = win2_6.index t (0 : Fin 2) * 5000 + 1 * p.val; omega
    | ⟨1, _⟩ => show win2_0.index t (1 : Fin 2) * 64 + 1 * l.val = l.val; omega
  · show V c main_v35 (((cfg2.win 1).blk t).view.emb (ix2 p l)) = V c main_v35 _
    refine congrArg _ (funext fun a => Fin.ext ?_)
    match a with
    | ⟨0, _⟩ => show win2_1.index t (0 : Fin 2) * 5000 + 1 * p.val = win2_6.index t (0 : Fin 2) * 5000 + 1 * p.val; omega
    | ⟨1, _⟩ => show win2_1.index t (1 : Fin 2) * 64 + 1 * l.val = l.val; omega
  · show win2_6.index t (1 : Fin 2) * 64 + 1 * q.val = q.val
    omega

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v36).slice (win2_6.rect t)).set ↔ _
  rw [View.set_slice_whole, Rect.mem_set_unit]
  exact Iff.rfl

/-- The 20 blocks of 5000 rows cover the 100000 rows: row `r` is in the block of point `r / 5000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : grid2.N = 20 := N_2
  let t : Fin cfg2.N := ⟨(i 0).val / 5000, by show (i 0).val / 5000 < grid2.N; omega⟩
  obtain ⟨-, -, -, -, -, -, -, -, -, -, e60, e61⟩ := idx_facts2 t
  have ht : t.val = (i 0).val / 5000 := rfl
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- After launch 2 its output array is the layer of the arrays it found. -/
theorem arr2 (c : Dev nD) :
    (dat2 V c).arrAt 6 cfg2.N
      = Gin.layer (V c main_v25) (V c main_v35) (V c main_arg10) (V c main_arg11) (V c main_arg12) (V c main_arg13) :=
  (dat2 V c).arrAt_eq_of_cover 6 _ (fun t _ => flushed2 V c t) (cover2)

end Cert.KernelIdeal.Net

end
-- ==== Proof.KValue.lean ====
/-
  The kernel's program, run: its result is the read-out of three message-passing steps.

  The first launch finds the input features, their neighbour sums and the first layer's weights, so its output array
  is the first step of the network. The second stretch of host operations turns that output into its neighbour sums,
  the second launch finds both and the second layer's weights, and so on; the last stretch reads the result off the
  third launch's output. Every argument array ends as launched.
-/
import proofs.«133368_j11888469475718_1_alg».proof.Proof.KRun
import proofs.«133368_j11888469475718_1_alg».proof.Proof.KWalk
import proofs.«133368_j11888469475718_1_alg».proof.Proof.KBlocks

set_option maxRecDepth 16384

noncomputable section

namespace Cert.KernelIdeal.Net

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- the node features after the first step -/
abbrev feat1 : FVec Ideal Gin.SN .f32 := (Gin.step (agg (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)))
/-- the node features after the second step -/
abbrev feat2 : FVec Ideal Gin.SN .f32 := (Gin.step (agg (m ((c : Thread nD τ).loc main_arg1))) (feat1 m c) (m ((c : Thread nD τ).loc main_arg6)) (m ((c : Thread nD τ).loc main_arg7)) (m ((c : Thread nD τ).loc main_arg8)) (m ((c : Thread nD τ).loc main_arg9)))
/-- the node features after the third step -/
abbrev feat3 : FVec Ideal Gin.SN .f32 := (Gin.step (agg (m ((c : Thread nD τ).loc main_arg1))) (feat2 m c) (m ((c : Thread nD τ).loc main_arg10)) (m ((c : Thread nD τ).loc main_arg11)) (m ((c : Thread nD τ).loc main_arg12)) (m ((c : Thread nD τ).loc main_arg13)))

/-- After the first launch its output array holds the first step. -/
theorem W2_feat : W2 m ρ c (Proc.devRef .tc main_v14) = feat1 m c := by
  refine (W2_arr m ρ c 6).trans ?_
  rw [arr0 (V1 m ρ) c]
  dsimp only [V1]
  rw [W1_arg0, W1_agg, W1_arg2, W1_arg3, W1_arg4, W1_arg5]
  rfl

/-- After the second launch its output array holds the second step. -/
theorem W4_feat : W4 m ρ c (Proc.devRef .tc main_v25) = feat2 m c := by
  refine (W4_arr m ρ c 6).trans ?_
  rw [arr1 (V3 m ρ) c]
  dsimp only [V3]
  rw [W3_feat, W3_agg, W3_arg6, W3_arg7, W3_arg8, W3_arg9, W2_feat]
  rfl

/-- After the third launch its output array holds the third step. -/
theorem W6_feat : W6 m ρ c (Proc.devRef .tc main_v36) = feat3 m c := by
  refine (W6_arr m ρ c 6).trans ?_
  rw [arr2 (V5 m ρ) c]
  dsimp only [V5]
  rw [W5_feat, W5_agg, W5_arg10, W5_arg11, W5_arg12, W5_arg13, W4_feat]
  rfl

/-- The result buffer at the last boundary: the read-out of the third step. -/
theorem W7_result : W7 m ρ c (Proc.devRef .tc main_v41)
    = hostReadout (feat3 m c) (m ((c : Thread nD τ).loc main_arg14)) (m ((c : Thread nD τ).loc main_arg15)) := by
  rw [W7_out, W6_feat]

/-- THE RUN: every weakly fair execution of the kernel's program terminates, nothing faulting, with the result buffer
    at the read-out of the third step and every argument array as launched. -/
theorem run : θ_run defs (onTc (τ := τ) (main (F := Ideal))) ⟨m, fun _ => 0, ρ⟩ (fun r => ∀ c : Dev nD,
      r.2.mem ((c.tc : Thread nD τ).loc main_v41)
        = hostReadout (feat3 m c) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ result_mem).trans (W7_result m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c),
     (h c _ (mem_uc main_arg14 (by decide))).trans (W7_main_arg14 m ρ c),
     (h c _ (mem_uc main_arg15 (by decide))).trans (W7_main_arg15 m ρ c)⟩)
    (run_all m ρ)

end Cert.KernelIdeal.Net

end
-- ==== Proof.RefNet.lean ====
/-
  The reference program's result, read as the network of `GinSpec`.

  The reference computes, on whole arrays: the neighbour sums of the node features along the edge list (each edge
  `(s, d)` adds the source node's row to the destination node's row, a negative source index first wrapped by the
  number of nodes), then per layer `max (max ((h + a) · w1 + b1) 0 · w2 + b2) 0` with the biases broadcast along the
  rows, three times, and at the end `h · ow + ob` with its single column dropped.

  Read at an index, a matrix product of a [100000, 64] array with a [64, n] array is the sum over the 64 shared
  coordinates of (left entry) × (right entry); a bias broadcast along the rows reads the bias at the column; the
  broadcast zero reads the real number zero. So each whole-array layer is `Gin.layer` and the last map is
  `Gin.readout`: the result is `Gin.net` over the reference's own aggregation of the edge list.
-/
import proofs.«133368_j11888469475718_1_alg».proof.Proof.Gen.ReferenceIdeal.Run
import proofs.«133368_j11888469475718_1_alg».proof.Proof.GinSpec
import Idealize.ShloMosaic.Lib.Pipeline.Value
import Idealize.ShloMosaic.Lib.ValueIdx
import Idealize.ShloMosaic.PureOps.Ideal.Laws

noncomputable section

namespace Cert.ReferenceIdeal.Net

open Cert.ReferenceIdeal Cert.ReferenceIdeal.Gen Idealize.ShloMosaic Idealize.ShloMosaic.TcCoe Idealize.SL.Sem
open Idealize.ShloMosaic.ValueIdx

/-- the edge list: row 0 the source nodes, row 1 the destination nodes -/
abbrev Edges : Type := (⟨S2x1000000, .i32⟩ : BufTy).Contents (Elt Ideal)

/-- the source node of every edge -/
def src (ei : Edges) : (⟨S1000000, .i32⟩ : BufTy).Contents (Elt Ideal) :=
  shapeCast S1000000 (extractStridedSlice S1x1000000 ![0, 0] ei slices_S2x1000000_S1x1000000_0_0) shapeCasts_S1x1000000_S1000000

/-- the destination node of every edge -/
def dst (ei : Edges) : (⟨S1000000, .i32⟩ : BufTy).Contents (Elt Ideal) :=
  shapeCast S1000000 (extractStridedSlice S1x1000000 ![1, 0] ei slices_S2x1000000_S1x1000000_1_0) shapeCasts_S1x1000000_S1000000

/-- The neighbour sums: into an array of zeros, every edge adds the row of its source node (a negative source index
    wrapped by 100000) at the row of its destination node. -/
def agg (ei : Edges) (h : FVec Ideal S100000x64 .f32) : FVec Ideal S100000x64 .f32 :=
  Host.scatterAdd (F := Ideal) scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (dst ei))
    (Host.gather gather_S100000x64_S1000000x1_S1000000x64_1_0_n_n_0_1_164 h
      (broadcastInDim S1000000x1 ![0] bcast_S1000000_S1000000x1_0
        (select (cmpi .slt (src ei) (broadcastInDim S1000000 ![] bcast_S_S1000000 (constantI S_ 32 0#32)))
          (addi (src ei) (broadcastInDim S1000000 ![] bcast_S_S1000000 (constantI S_ 32 100000#32)))
          (src ei))))

/-- one affine map with its rectifier, on whole arrays -/
def hostDense (z : FVec Ideal S100000x64 .f32) (w : FVec Ideal S64x64 .f32) (b : FVec Ideal S64 .f32) : FVec Ideal S100000x64 .f32 :=
  maximumf
    (addf (Host.dotGeneral (F := Ideal) dot_S100000x64_S64x64_S100000x64_1_0_0_1_n_n none z w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- one layer on whole arrays -/
def hostLayer (h a : FVec Ideal S100000x64 .f32) (w1 : FVec Ideal S64x64 .f32) (b1 : FVec Ideal S64 .f32)
    (w2 : FVec Ideal S64x64 .f32) (b2 : FVec Ideal S64 .f32) : FVec Ideal S100000x64 .f32 :=
  hostDense (hostDense (addf h a) w1 b1) w2 b2

/-- the read-out on whole arrays -/
def hostReadout (h : FVec Ideal S100000x64 .f32) (ow : FVec Ideal S64x1 .f32) (ob : FVec Ideal S1 .f32) : FVec Ideal S100000 .f32 :=
  shapeCast S100000
    (addf (Host.dotGeneral (F := Ideal) dot_S100000x64_S64x1_S100000x1_1_0_0_1_n_n none h ow)
      (broadcastInDim S100000x1 ![0, 1] bcast_S1x1_S100000x1_0_1 (broadcastInDim S1x1 ![1] bcast_S1_S1x1_1 ob)))
    shapeCasts_S100000x1_S100000

/-- one message-passing step on whole arrays -/
def hostStep (ei : Edges) (h : FVec Ideal S100000x64 .f32) (w1 : FVec Ideal S64x64 .f32) (b1 : FVec Ideal S64 .f32)
    (w2 : FVec Ideal S64x64 .f32) (b2 : FVec Ideal S64 .f32) : FVec Ideal S100000x64 .f32 :=
  hostLayer h (agg ei h) w1 b1 w2 b2

/-! ## The program's result is three steps and the read-out -/

theorem res_eq (m : (ℓ : Loc nD τ sig) → Buf (Elt Ideal) ℓ) (c : Dev nD) :
    Value.res_main_v71 (F := Ideal) m c =
      hostReadout
        (hostStep (m ((c.tc : Thread nD τ).loc main_arg1))
          (hostStep (m ((c.tc : Thread nD τ).loc main_arg1))
            (hostStep (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg6)) (m ((c.tc : Thread nD τ).loc main_arg7))
            (m ((c.tc : Thread nD τ).loc main_arg8)) (m ((c.tc : Thread nD τ).loc main_arg9)))
          (m ((c.tc : Thread nD τ).loc main_arg10)) (m ((c.tc : Thread nD τ).loc main_arg11))
          (m ((c.tc : Thread nD τ).loc main_arg12)) (m ((c.tc : Thread nD τ).loc main_arg13)))
        (m ((c.tc : Thread nD τ).loc main_arg14)) (m ((c.tc : Thread nD τ).loc main_arg15)) := by
  unfold Value.res_main_v71
  rfl

end Cert.ReferenceIdeal.Net

end
-- ==== Proof.RefValue.lean ====
/-
  The reference's whole-array operations, read at an index.

  A product of a [100000, 64] array with a [64, n] array (n = 64 for a layer, n = 1 for the read-out) read at
  `(p, k)` is the sum over the 64 shared coordinates `l` of (left at `(p, l)`) × (right at `(l, k)`); a bias row
  broadcast down the rows reads the bias at the column; the broadcast zero reads the real number zero; dropping the
  read-out's single column reads `(p, 0)`. Hence one affine map with its rectifier is `Gin.dense` of a row, a layer is
  `Gin.layer`, the read-out is `Gin.readout`, and the program's result is `Gin.net` over its own aggregation.
-/
import proofs.«133368_j11888469475718_1_alg».proof.Proof.RefNet

noncomputable section

namespace Cert.ReferenceIdeal.Net

open Cert.ReferenceIdeal Cert.ReferenceIdeal.Gen Idealize.ShloMosaic Idealize.ShloMosaic.TcCoe Idealize.SL.Sem
open Idealize.ShloMosaic.ValueIdx

/-- a layer's product: [100000, 64] × [64, 64] -/
abbrev layerDot : DotDims S100000x64 S64x64 S100000x64 := dot_S100000x64_S64x64_S100000x64_1_0_0_1_n_n
/-- the read-out's product: [100000, 64] × [64, 1] -/
abbrev outDot : DotDims S100000x64 S64x1 S100000x1 := dot_S100000x64_S64x1_S100000x1_1_0_0_1_n_n

/-- A layer's product at `(p, k)`, its contraction index re-indexed by the shared coordinate. -/
theorem layerDot_apply (x : FVec Ideal S100000x64 .f32) (w : FVec Ideal S64x64 .f32) (p : Fin 100000) (k : Fin 64) :
    Host.dotGeneral (F := Ideal) layerDot none x w (ix2 p k) = ∑ l : Fin 64, x (ix2 p l) * w (ix2 l k) := by
  simp only [Host.dotGeneral]
  rw [Ideal.dotGeneral_apply, ← Equiv.sum_comp (contrEquiv1 layerDot 64 rfl rfl).symm]
  refine Finset.sum_congr rfl fun l _ => ?_
  have hl := contrEquiv1_symm_val layerDot 64 rfl rfl l
  have el : layerDot.lhsIdx (ix2 p k) ((contrEquiv1 layerDot 64 rfl rfl).symm l) = ix2 p l := funext fun a => Fin.ext (by
    match a with
    | ⟨0, _⟩ =>
      show (layerDot.lhsIdx (ix2 p k) _ 0).val = p.val
      unfold DotDims.lhsIdx
      rw [dif_neg (show ¬(0 : Fin S100000x64.rank) ∈ layerDot.lhsBatch by decide), dif_pos (show (0 : Fin S100000x64.rank) ∈ layerDot.lhsNonContracting by decide)]
      rfl
    | ⟨1, _⟩ => exact (layerDot.lhsIdx_val_of_single rfl _ _).trans hl)
  have er : layerDot.rhsIdx (ix2 p k) ((contrEquiv1 layerDot 64 rfl rfl).symm l) = ix2 l k := funext fun a => Fin.ext (by
    match a with
    | ⟨0, _⟩ => exact (layerDot.rhsIdx_val_of_single rfl _ _).trans hl
    | ⟨1, _⟩ =>
      show (layerDot.rhsIdx (ix2 p k) _ 1).val = k.val
      unfold DotDims.rhsIdx
      rw [dif_neg (show ¬(1 : Fin S64x64.rank) ∈ layerDot.rhsBatch by decide), dif_pos (show (1 : Fin S64x64.rank) ∈ layerDot.rhsNonContracting by decide)]
      rfl)
  rw [el, er]

/-- The read-out's product at `(p, u)`, likewise. -/
theorem outDot_apply (x : FVec Ideal S100000x64 .f32) (w : FVec Ideal S64x1 .f32) (p : Fin 100000) (u : Fin 1) :
    Host.dotGeneral (F := Ideal) outDot none x w (ix2 p u) = ∑ l : Fin 64, x (ix2 p l) * w (ix2 l u) := by
  simp only [Host.dotGeneral]
  rw [Ideal.dotGeneral_apply, ← Equiv.sum_comp (contrEquiv1 outDot 64 rfl rfl).symm]
  refine Finset.sum_congr rfl fun l _ => ?_
  have hl := contrEquiv1_symm_val outDot 64 rfl rfl l
  have el : outDot.lhsIdx (ix2 p u) ((contrEquiv1 outDot 64 rfl rfl).symm l) = ix2 p l := funext fun a => Fin.ext (by
    match a with
    | ⟨0, _⟩ =>
      show (outDot.lhsIdx (ix2 p u) _ 0).val = p.val
      unfold DotDims.lhsIdx
      rw [dif_neg (show ¬(0 : Fin S100000x64.rank) ∈ outDot.lhsBatch by decide), dif_pos (show (0 : Fin S100000x64.rank) ∈ outDot.lhsNonContracting by decide)]
      rfl
    | ⟨1, _⟩ => exact (outDot.lhsIdx_val_of_single rfl _ _).trans hl)
  have er : outDot.rhsIdx (ix2 p u) ((contrEquiv1 outDot 64 rfl rfl).symm l) = ix2 l u := funext fun a => Fin.ext (by
    match a with
    | ⟨0, _⟩ => exact (outDot.rhsIdx_val_of_single rfl _ _).trans hl
    | ⟨1, _⟩ =>
      show (outDot.rhsIdx (ix2 p u) _ 1).val = u.val
      unfold DotDims.rhsIdx
      rw [dif_neg (show ¬(1 : Fin S64x1.rank) ∈ outDot.rhsBatch by decide), dif_pos (show (1 : Fin S64x1.rank) ∈ outDot.rhsNonContracting by decide)]
      rfl)
  rw [el, er]

/-- A bias broadcast down the rows reads the bias at the column. -/
theorem biasRows_apply (b : FVec Ideal S64 .f32) (p : Fin 100000) (k : Fin 64) :
    broadcastInDim S100000x64 ![0, 1] bcast_S1x64_S100000x64_0_1 (broadcastInDim S1x64 ![1] bcast_S64_S1x64_1 b) (ix2 p k) = b (ix1 k) := by
  refine (broadcastInDim_apply _ bcast_S1x64_S100000x64_0_1 _ (ix2 p k) (ix2 (0 : Fin 1) k) (fun a => ?_)).trans
    (broadcastInDim_apply _ bcast_S64_S1x64_1 b (ix2 (0 : Fin 1) k) (ix1 k) (fun a => ?_))
  · match a with
    | ⟨0, _⟩ => show 0 = if (1 : Nat) = 1 then 0 else p.val; rw [if_pos rfl]
    | ⟨1, _⟩ => show k.val = if (64 : Nat) = 1 then 0 else k.val; rw [if_neg (by decide)]
  · match a with
    | ⟨0, _⟩ => show k.val = if (64 : Nat) = 1 then 0 else k.val; rw [if_neg (by decide)]

/-- The broadcast zero reads the real number zero. -/
theorem zeros_apply (i : S100000x64.Idx) :
    broadcastInDim S100000x64 ![] bcast_S_S100000x64 (constant (F := Ideal) S_ .f32 0x00000000#32) i = 0 :=
  (broadcastInDim_apply _ bcast_S_S100000x64 _ i ix0 (fun a => a.elim0)).trans Ideal.ofBits_zero_f32

/-- One affine map with its rectifier, read at row `p`, column `k`. -/
theorem hostDense_apply (z : FVec Ideal S100000x64 .f32) (w : FVec Ideal S64x64 .f32) (b : FVec Ideal S64 .f32) (p : Fin 100000) (k : Fin 64) :
    hostDense z w b (ix2 p k) = Gin.dense (fun l => z (ix2 p l)) w b k := by
  unfold hostDense Gin.dense
  show max (_ + _) _ = max (_ + _) 0
  refine congr (congrArg max (congr (congrArg HAdd.hAdd ?_) ?_)) ?_
  · exact layerDot_apply z w p k
  · exact biasRows_apply b p k
  · exact zeros_apply (ix2 p k)

/-- A whole-array layer is `Gin.layer`. -/
theorem hostLayer_eq (h a : FVec Ideal S100000x64 .f32) (w1 : FVec Ideal S64x64 .f32) (b1 : FVec Ideal S64 .f32)
    (w2 : FVec Ideal S64x64 .f32) (b2 : FVec Ideal S64 .f32) :
    hostLayer h a w1 b1 w2 b2 = Gin.layer h a w1 b1 w2 b2 := by
  funext i
  obtain ⟨p, q, rfl⟩ : ∃ (p : Fin 100000) (q : Fin 64), i = ix2 p q := ⟨i 0, i 1, eq_ix2 i⟩
  unfold hostLayer
  rw [hostDense_apply]
  show _ = Gin.mlp (fun l => h (ix2 p l) + a (ix2 p l)) w1 b1 w2 b2 q
  unfold Gin.mlp
  refine congrArg (fun z => Gin.dense z w2 b2 q) (funext fun k => ?_)
  exact hostDense_apply (addf h a) w1 b1 p k

/-- The whole-array read-out is `Gin.readout`. -/
theorem hostReadout_eq (h : FVec Ideal S100000x64 .f32) (ow : FVec Ideal S64x1 .f32) (ob : FVec Ideal S1 .f32) :
    hostReadout h ow ob = Gin.readout h ow ob := by
  funext i
  obtain ⟨p, rfl⟩ : ∃ p : Fin 100000, i = ix1 p := ⟨i 0, eq_ix1 i⟩
  unfold hostReadout
  refine (shapeCast_apply _ shapeCasts_S100000x1_S100000 (ix1 p) (ix2 p (0 : Fin 1)) (by
    rw [Shape.rowMajor_val_two, Shape.rowMajor_val_one]
    show p.val * 1 + 0 = p.val
    omega)).trans ?_
  show _ + _ = Gin.readoutAt h ow ob p
  unfold Gin.readoutAt
  refine congr (congrArg HAdd.hAdd (outDot_apply h ow p 0)) ?_
  refine (broadcastInDim_apply _ bcast_S1x1_S100000x1_0_1 _ (ix2 p (0 : Fin 1)) (ix2 (0 : Fin 1) (0 : Fin 1)) (fun a => ?_)).trans
    (broadcastInDim_apply _ bcast_S1_S1x1_1 ob (ix2 (0 : Fin 1) (0 : Fin 1)) (ix1 (0 : Fin 1)) (fun a => ?_))
  · match a with
    | ⟨0, _⟩ => show 0 = if (1 : Nat) = 1 then 0 else p.val; rw [if_pos rfl]
    | ⟨1, _⟩ => show 0 = if (1 : Nat) = 1 then 0 else 0; rw [if_pos rfl]
  · match a with
    | ⟨0, _⟩ => show 0 = if (1 : Nat) = 1 then 0 else 0; rw [if_pos rfl]

/-- A whole-array step is `Gin.step` over the reference's aggregation. -/
theorem hostStep_eq (ei : Edges) (h : FVec Ideal S100000x64 .f32) (w1 : FVec Ideal S64x64 .f32) (b1 : FVec Ideal S64 .f32)
    (w2 : FVec Ideal S64x64 .f32) (b2 : FVec Ideal S64 .f32) :
    hostStep ei h w1 b1 w2 b2 = Gin.step (agg ei) h w1 b1 w2 b2 := hostLayer_eq h (agg ei h) w1 b1 w2 b2

/-- The program's result is the network over its aggregation of the edge list. -/
theorem res_net (m : (ℓ : Loc nD τ sig) → Buf (Elt Ideal) ℓ) (c : Dev nD) :
    Value.res_main_v71 (F := Ideal) m c =
      Gin.net (agg (m ((c.tc : Thread nD τ).loc main_arg1))) (m ((c.tc : Thread nD τ).loc main_arg0))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15)) := by
  rw [res_eq, hostReadout_eq, hostStep_eq, hostStep_eq, hostStep_eq]
  rfl

end Cert.ReferenceIdeal.Net

end
-- ==== Proof.lean ====
/-
  The proof of `Cert.Claim`: the kernel's program and its reference compute the same node scores.

  Both programs are a three-step message-passing network followed by a read-out (`GinSpec`): a step adds to every
  node's feature row the sum of its neighbours' rows along the edge list and sends the result through a two-layer
  perceptron with a rectifier after each affine map. The reference does every step on whole arrays. The kernel's
  program computes the neighbour sums on whole arrays with the very same operations, and the perceptron block by
  block, 5000 rows at a time; its roundings to a 16-bit format in front of the products are the identity on exact
  values. Index by index the two perceptrons are the same sums in the same order, so no law of the extended reals
  beyond congruence is used and the inputs' finiteness is never opened.

  The three frames: the word-level kernel and the idealized kernel terminate without a fault and leave their arguments
  alone; the reference's frame is its run with the result dropped. The ideal pass rewrote nothing, so `preserves` is
  trivial.
-/
import proofs.«133368_j11888469475718_1_alg».proof.Defs
import proofs.«133368_j11888469475718_1_alg».proof.Proof.Gen.Kernel
import proofs.«133368_j11888469475718_1_alg».proof.Proof.Gen.Kernel.Frame
import proofs.«133368_j11888469475718_1_alg».proof.Proof.Gen.KernelIdeal
import proofs.«133368_j11888469475718_1_alg».proof.Proof.Gen.KernelIdeal.Frame
import proofs.«133368_j11888469475718_1_alg».proof.Proof.Gen.ReferenceIdeal
import proofs.«133368_j11888469475718_1_alg».proof.Proof.Gen.ReferenceIdeal.Run
import proofs.«133368_j11888469475718_1_alg».proof.Proof.Gen.Pre_finite_inputs
import proofs.«133368_j11888469475718_1_alg».proof.Proof.KValue
import proofs.«133368_j11888469475718_1_alg».proof.Proof.RefValue
import Idealize.ShloMosaic.Adequacy
import Idealize.ShloMosaic.Init

noncomputable section

namespace Cert.Proof

open Idealize.ShloMosaic Idealize.ShloMosaic.TcCoe Idealize.SL.Sem

/-- The two programs aggregate along the edge list with the same operations: one function. -/
theorem agg_eq (ei : Cert.KernelIdeal.Net.Edges) : Cert.KernelIdeal.Net.agg ei = Cert.ReferenceIdeal.Net.agg ei := by
  funext h
  unfold Cert.KernelIdeal.Net.agg Cert.KernelIdeal.Net.aggOf Cert.KernelIdeal.Net.src Cert.KernelIdeal.Net.dst
    Cert.ReferenceIdeal.Net.agg Cert.ReferenceIdeal.Net.src Cert.ReferenceIdeal.Net.dst
  rfl

/-- The two programs read the result off the last features with the same operations. -/
theorem readout_eq (h : FVec Ideal Cert.Gin.SN .f32) (ow : FVec Ideal Cert.Gin.SOW .f32) (ob : FVec Ideal Cert.Gin.SOB .f32) :
    Cert.KernelIdeal.Net.hostReadout h ow ob = Cert.ReferenceIdeal.Net.hostReadout h ow ob := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's scores of the launch arguments. -/
theorem algebraic : Cert.algebraic_KernelIdeal_ReferenceIdeal := by
  intro m ρ m' ρ' _ hagree
  refine ⟨fun c => Cert.Gin.net (Cert.ReferenceIdeal.Net.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩) (Cert.KernelIdeal.Net.run m ρ)
    rw [readout_eq, Cert.ReferenceIdeal.Net.hostReadout_eq]
    dsimp only [Cert.KernelIdeal.Net.feat3, Cert.KernelIdeal.Net.feat2, Cert.KernelIdeal.Net.feat1]
    rw [agg_eq]
    rfl
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.ReferenceIdeal.Net.res_net, a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
